-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S4x128x768 : Shape := ⟨3, ![4, 128, 768]⟩
abbrev S1024x768 : Shape := ⟨2, ![1024, 768]⟩
abbrev S1024 : Shape := ⟨1, ![1024]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S4x128x768 : S_.BroadcastsInDim S4x128x768 (![] : Fin 0 → Fin S4x128x768.rank)
  reducesTo_S4x128x768_S_d0_1_2 : S4x128x768.ReducesTo [0, 1, 2] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x768 .f32) (main_arg1 : FVec F S4x128x768 .f32) (main_arg2 : FVec F S1024x768 .f32) (main_arg3 : FVec F S1024 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S4x128x768 .f32 := Host.absf main_arg1
  let main_cst_0 : FVec F S_ .f32 := constant S_ .f32 0x7F800000#32
  let main_v5 : FVec F S4x128x768 .f32 := broadcastInDim S4x128x768 ![] bcast_S_S4x128x768 main_cst_0
  let main_v6 : IVec S4x128x768 1 := cmpf .olt main_v4 main_v5
  let main_c_1 : IVec S_ 1 := constantI S_ 1 1#1
  let main_v7 : IVec S_ 1 := (fun x v => Host.reduce IntOp.andi x v reducesTo_S4x128x768_S_d0_1_2 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x768 : Shape := ⟨3, ![4, 256, 768]⟩
abbrev S4x128x768 : Shape := ⟨3, ![4, 128, 768]⟩
abbrev S1024x768 : Shape := ⟨2, ![1024, 768]⟩
abbrev S1024 : Shape := ⟨1, ![1024]⟩
abbrev S768x1024 : Shape := ⟨2, ![768, 1024]⟩
abbrev S1x1024 : Shape := ⟨2, ![1, 1024]⟩
abbrev S4x256x128x1024 : Shape := ⟨4, ![4, 256, 128, 1024]⟩
abbrev S1x32x768 : Shape := ⟨3, ![1, 32, 768]⟩
abbrev S1x128x768 : Shape := ⟨3, ![1, 128, 768]⟩
abbrev S768x256 : Shape := ⟨2, ![768, 256]⟩
abbrev S1x256 : Shape := ⟨2, ![1, 256]⟩
abbrev S1x32x128x256 : Shape := ⟨4, ![1, 32, 128, 256]⟩
abbrev S32x768 : Shape := ⟨2, ![32, 768]⟩
abbrev S128x768 : Shape := ⟨2, ![128, 768]⟩
abbrev S32x1x768 : Shape := ⟨3, ![32, 1, 768]⟩
abbrev S32x128x768 : Shape := ⟨3, ![32, 128, 768]⟩
abbrev S4096x768 : Shape := ⟨2, ![4096, 768]⟩
abbrev S4096x256 : Shape := ⟨2, ![4096, 256]⟩
abbrev S32x128x256 : Shape := ⟨3, ![32, 128, 256]⟩
abbrev S256 : Shape := ⟨1, ![256]⟩
abbrev S1x1x256 : Shape := ⟨3, ![1, 1, 256]⟩

abbrev nBuf : Space → Nat
  | .hbm => 8
  | .vmem => 10
  | .smem => 0
  | _ => 0

abbrev bufTy : (tb : Table) → Fin (tcTables nBuf tb) → BufTy
  | .hbm, ⟨0, _⟩ => ⟨S4x256x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S768x1024, .f32⟩
  | .hbm, ⟨5, _⟩ => ⟨S768x1024, .bf16⟩
  | .hbm, ⟨6, _⟩ => ⟨S1x1024, .f32⟩
  | .hbm, ⟨7, _⟩ => ⟨S4x256x128x1024, .f32⟩
  | .local _ .vmem, ⟨0, _⟩ => ⟨S1x32x768, .f32⟩
  | .local _ .vmem, ⟨1, _⟩ => ⟨S1x32x768, .f32⟩
  | .local _ .vmem, ⟨2, _⟩ => ⟨S1x128x768, .f32⟩
  | .local _ .vmem, ⟨3, _⟩ => ⟨S1x128x768, .f32⟩
  | .local _ .vmem, ⟨4, _⟩ => ⟨S768x256, .bf16⟩
  | .local _ .vmem, ⟨5, _⟩ => ⟨S768x256, .bf16⟩
  | .local _ .vmem, ⟨6, _⟩ => ⟨S1x256, .f32⟩
  | .local _ .vmem, ⟨7, _⟩ => ⟨S1x256, .f32⟩
  | .local _ .vmem, ⟨8, _⟩ => ⟨S1x32x128x256, .f32⟩
  | .local _ .vmem, ⟨9, _⟩ => ⟨S1x32x128x256, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x32x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  transposes_S1024x768_S768x1024_1_0 : S1024x768.Transposes [1, 0] S768x1024
  bitsLt_bf16_f32 : FTy.bits .bf16 < FTy.bits .f32
  shapeCasts_S1024_S1x1024 : S1024.ShapeCasts S1x1024
  inb_S1x32x768_S1x32x768_0_0_0 : ∀ a, (![0, 0, 0] : Fin 3 → Nat) a + S1x32x768.size a ≤ S1x32x768.size a
  h_S1x32x768 : 0 < S1x32x768.numel
  shapeCasts_S1x32x768_S32x768 : S1x32x768.ShapeCasts S32x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S32x768_S32x1x768 : S32x768.ShapeCasts S32x1x768
  shapeCasts_S128x768_S1x128x768 : S128x768.ShapeCasts S1x128x768
  broadcasts_S32x1x768_S32x128x768 : S32x1x768.Broadcasts S32x128x768
  broadcasts_S1x128x768_S32x128x768 : S1x128x768.Broadcasts S32x128x768
  shapeCasts_S32x128x768_S4096x768 : S32x128x768.ShapeCasts S4096x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  shapeCasts_S4096x256_S32x128x256 : S4096x256.ShapeCasts S32x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  shapeCasts_S256_S1x1x256 : S256.ShapeCasts S1x1x256
  broadcasts_S1x1x256_S32x128x256 : S1x1x256.Broadcasts S32x128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x128x256_S1x32x128x256 : S32x128x256.ShapeCasts S1x32x128x256
  dot_S4096x768_S768x256_S4096x256_1_0_0_1_n_n_wf : DotDims.WF S4096x768 S768x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x768.size a ≤ S4x256x768.size a
  hwx0_0 : ∀ i : grid0.Coords, EltTy.bits .f32 = 32 ∨ (Rect.block (s := S4x256x768) S1x32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S4x128x768.size a
  hwx0_1 : ∀ i : grid0.Coords, EltTy.bits .f32 = 32 ∨ (Rect.block (s := S4x128x768) S1x128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x1024.size a
  hwx0_2 : ∀ i : grid0.Coords, EltTy.bits .bf16 = 32 ∨ (Rect.block (s := S768x1024) S768x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x1024.size a
  hwx0_3 : ∀ i : grid0.Coords, EltTy.bits .f32 = 32 ∨ (Rect.block (s := S1x1024) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128x256.size a ≤ S4x256x128x1024.size a
  hwx0_4 : ∀ i : grid0.Coords, EltTy.bits .f32 = 32 ∨ (Rect.block (s := S4x256x128x1024) S1x32x128x256.size (cc0_transform_4 i) (hinb0_4 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf

abbrev win0_0 : Pipeline.Window sig grid0 :=
  Pipeline.Window.ofSpec (Memref.whole main_arg0) S1x32x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x768 : Shape := ⟨3, ![4, 256, 768]⟩
abbrev S4x128x768 : Shape := ⟨3, ![4, 128, 768]⟩
abbrev S1024x768 : Shape := ⟨2, ![1024, 768]⟩
abbrev S1024 : Shape := ⟨1, ![1024]⟩
abbrev S4x256x1x768 : Shape := ⟨4, ![4, 256, 1, 768]⟩
abbrev S4x1x128x768 : Shape := ⟨4, ![4, 1, 128, 768]⟩
abbrev S4x256x128x768 : Shape := ⟨4, ![4, 256, 128, 768]⟩
abbrev S4x256x128x1024 : Shape := ⟨4, ![4, 256, 128, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S4x256x1x768, .f32⟩
  | .hbm, ⟨5, _⟩ => ⟨S4x1x128x768, .f32⟩
  | .hbm, ⟨6, _⟩ => ⟨S4x256x128x768, .f32⟩
  | .hbm, ⟨7, _⟩ => ⟨S4x256x128x768, .f32⟩
  | .hbm, ⟨8, _⟩ => ⟨S4x256x128x768, .f32⟩
  | .hbm, ⟨9, _⟩ => ⟨S4x256x128x1024, .f32⟩
  | .hbm, ⟨10, _⟩ => ⟨S1x1x1x1024, .f32⟩
  | .hbm, ⟨11, _⟩ => ⟨S4x256x128x1024, .f32⟩
  | .hbm, ⟨12, _⟩ => ⟨S4x256x128x1024, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4x256x768_S4x256x1x768_0_1_3 : S4x256x768.BroadcastsInDim S4x256x1x768 (![0, 1, 3] : Fin 3 → Fin S4x256x1x768.rank)
  bcast_S4x128x768_S4x1x128x768_0_2_3 : S4x128x768.BroadcastsInDim S4x1x128x768 (![0, 2, 3] : Fin 3 → Fin S4x1x128x768.rank)
  bcast_S4x256x1x768_S4x256x128x768_0_1_2_3 : S4x256x1x768.BroadcastsInDim S4x256x128x768 (![0, 1, 2, 3] : Fin 4 → Fin S4x256x128x768.rank)
  bcast_S4x1x128x768_S4x256x128x768_0_1_2_3 : S4x1x128x768.BroadcastsInDim S4x256x128x768 (![0, 1, 2, 3] : Fin 4 → Fin S4x256x128x768.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x128x768_S1024x768_S4x256x128x1024_3_1_012_0_n_n_wf : DotDims.WF S4x256x128x768 S1024x768 S4x256x128x1024 [3] [1] [0, 1, 2] [0] [] []

variable [Facts₀]

def dot_S4x256x128x768_S1024x768_S4x256x128x1024_3_1_012_0_n_n : DotDims S4x256x128x768 S1024x768 S4x256x128x1024 where
  lhsContracting := [3]
  rhsContracting := [1]
  lhsNonContracting := [0, 1, 2]
  rhsNonContracting := [0]
  lhsBatch := []
  rhsBatch := []
  wf := dot_S4x256x128x768_S1024x768_S4x256x128x1024_3_1_012_0_n_n_wf

class Facts : Prop extends Facts₀ where

variable [Facts]
-- ==== Proof.LibFoldedRows.lean ====
/-
  Rows folded and rows spread, read at an index.

  A kernel that applies one matrix product to every pair (r, u) — a row r of one array with a row u of another — lays
  the pairs out as the rows r·b + u of ONE matrix: it spreads an [a, n] array over a new middle axis and a [b, n] array
  over a new leading axis, combines them into an [a, b, n] array, views that as [a·b, n] for the product, and views the
  product's [a·b, n'] result as [a, b, n'] again. Each of those re-layings reads one entry of its operand at each index;
  this file says which, for any extents: the two views between [a, b, n] and [m, n] (row q = r·b + u), the views of
  [a, n] as [a, 1, n] and of [n] as [1, 1, n], and an [a, 1, n], a [1, b, n] and a [1, 1, n] array spread to [a, b, n].
-/
import Idealize.ShloMosaic.Lib.Pipeline.Value
import Idealize.ShloMosaic.Lib.ValueIdx

noncomputable section

namespace Cert.LibFoldedRows

open Idealize.ShloMosaic Idealize.ShloMosaic.ValueIdx

variable {α : Type}

/-! ## Two leading axes folded into one, and unfolded -/

/-- An [a, b, n] array viewed as [m, n] reads, at row q = r·b + u, the operand at (r, u): the same row-major position. -/
theorem shapeCast_abn_mn_apply {a b n m : ℕ} (x : (⟨3, ![a, b, n]⟩ : Shape).Idx → α)
    (h : (⟨3, ![a, b, n]⟩ : Shape).ShapeCasts ⟨2, ![m, n]⟩) (r : Fin a) (u : Fin b) (k : Fin n) (q : Fin m)
    (hq : q.val = r.val * b + u.val) :
    shapeCast ⟨2, ![m, n]⟩ x h (ix2 q k) = x (ix3 r u k) :=
  shapeCast_apply x h _ _ (by
    rw [Shape.rowMajor_val_three, Shape.rowMajor_val_two]
    show (r.val * b + u.val) * n + k.val = q.val * n + k.val
    rw [hq])

/-- An [m, n] array viewed as [a, b, n] reads, at (r, u), the operand's row q = r·b + u. -/
theorem shapeCast_mn_abn_apply {a b n m : ℕ} (y : (⟨2, ![m, n]⟩ : Shape).Idx → α)
    (h : (⟨2, ![m, n]⟩ : Shape).ShapeCasts ⟨3, ![a, b, n]⟩) (r : Fin a) (u : Fin b) (k : Fin n) (q : Fin m)
    (hq : q.val = r.val * b + u.val) :
    shapeCast ⟨3, ![a, b, n]⟩ y h (ix3 r u k) = y (ix2 q k) :=
  shapeCast_apply y h _ _ (by
    rw [Shape.rowMajor_val_three, Shape.rowMajor_val_two]
    show q.val * n + k.val = (r.val * b + u.val) * n + k.val
    rw [hq])

/-! ## A unit axis put in the middle, and two in front -/

/-- An [a, n] array viewed as [a, 1, n] reads, at (r, z, k), the operand at (r, k). -/
theorem shapeCast_an_a1n_apply {a n : ℕ} (x : (⟨2, ![a, n]⟩ : Shape).Idx → α)
    (h : (⟨2, ![a, n]⟩ : Shape).ShapeCasts ⟨3, ![a, 1, n]⟩) (r : Fin a) (z : Fin 1) (k : Fin n) :
    shapeCast ⟨3, ![a, 1, n]⟩ x h (ix3 r z k) = x (ix2 r k) :=
  shapeCast_apply x h _ _ (by
    have hz : z.val = 0 := by omega
    rw [Shape.rowMajor_val_three, Shape.rowMajor_val_two]
    show r.val * n + k.val = (r.val * 1 + z.val) * n + k.val
    rw [hz, Nat.mul_one, Nat.add_zero])

/-- An [n] array viewed as [1, 1, n] reads, at (z, z', k), the operand at k. -/
theorem shapeCast_n_11n_apply {n : ℕ} (x : (⟨1, ![n]⟩ : Shape).Idx → α)
    (h : (⟨1, ![n]⟩ : Shape).ShapeCasts ⟨3, ![1, 1, n]⟩) (z z' : Fin 1) (k : Fin n) :
    shapeCast ⟨3, ![1, 1, n]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * n + k.val
    rw [hz, hz']
    simp only [Nat.zero_mul, Nat.zero_add])

/-! ## Rows spread over a new axis -/

/-- An [a, 1, n] array spread to [a, b, n] reads, at (r, u, k), the operand at (r, 0, k). -/
theorem broadcastTo_a1n_abn_apply {a b n : ℕ} (v : (⟨3, ![a, 1, n]⟩ : Shape).Idx → α)
    (h : (⟨3, ![a, 1, n]⟩ : Shape).Broadcasts ⟨3, ![a, b, n]⟩) (r : Fin a) (u : Fin b) (k : Fin n) :
    broadcastTo ⟨3, ![a, b, n]⟩ v h (ix3 r u k) = v (ix3 r (0 : Fin 1) k) := by
  refine broadcastTo_apply v h (ix3 r u k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- A [1, b, n] array spread to [a, b, n] reads, at (r, u, k), the operand at (0, u, k). -/
theorem broadcastTo_1bn_abn_apply {a b n : ℕ} (v : (⟨3, ![1, b, n]⟩ : Shape).Idx → α)
    (h : (⟨3, ![1, b, n]⟩ : Shape).Broadcasts ⟨3, ![a, b, n]⟩) (r : Fin a) (u : Fin b) (k : Fin n) :
    broadcastTo ⟨3, ![a, b, n]⟩ v h (ix3 r u k) = v (ix3 (0 : Fin 1) u k) := by
  refine broadcastTo_apply v h (ix3 r u k) (ix3 (0 : Fin 1) u k) fun ax => ?_
  match ax with
  | ⟨0, _⟩ => rfl
  | ⟨1, _⟩ =>
    show u.val = if b = 1 then 0 else u.val
    split
    · have := u.isLt; omega
    · rfl
  | ⟨2, _⟩ =>
    show k.val = if n = 1 then 0 else k.val
    split
    · have := k.isLt; omega
    · rfl

/-- A [1, 1, n] array spread to [a, b, n] reads, at (r, u, k), the operand's one row at k. -/
theorem broadcastTo_11n_abn_apply {a b n : ℕ} (v : (⟨3, ![1, 1, n]⟩ : Shape).Idx → α)
    (h : (⟨3, ![1, 1, n]⟩ : Shape).Broadcasts ⟨3, ![a, b, n]⟩) (r : Fin a) (u : Fin b) (k : Fin n) :
    broadcastTo ⟨3, ![a, b, n]⟩ v h (ix3 r u k) = v (ix3 (0 : Fin 1) (0 : Fin 1) k) := by
  refine broadcastTo_apply v h (ix3 r u k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LibFoldedRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.BodyLogits.lean ====
/-
  What the kernel body stores, read at an index.

  At one grid point the body holds a [1, 32, 768] block x0 of enc (32 encoder frames of one batch entry), the
  [1, 128, 768] block x1 of dec (all decoder steps of that entry), a [768, 256] block x2 of the transposed weights and
  a [1, 256] block x3 of the bias row. It spreads x0 over the decoder steps and x1 over the frames, adds, lays the
  32·128 pairs (r, u) out as the rows r·128 + u of one [4096, 768] matrix, multiplies by x2 into a zero accumulator,
  unfolds the rows again and adds the bias. So the entry it stores at (z, r, u, c) is

      Σ_k (x0(0, r, k) + x1(0, u, k)) · x2(k, c) + x3(0, c):

  every re-laying reads one entry of its operand, the change of float format is the identity on the extended reals,
  and the product into zero is the plain sum over the 768 features.
-/
import proofs.«115035_j75917841924365_1_alg».proof.Proof.Gen.KernelIdeal.Skeleton
import proofs.«115035_j75917841924365_1_alg».proof.Proof.LibFoldedRows
import proofs.«115035_j75917841924365_1_alg».proof.Proof.LibPlainDot
import proofs.«115035_j75917841924365_1_alg».proof.Proof.LibMatmulRows
import Idealize.ShloMosaic.Lib.ValueLayout

noncomputable section

namespace Cert.KernelIdeal.BodyLogits

open Cert.KernelIdeal Cert.KernelIdeal.Gen
open Idealize.ShloMosaic Idealize.ShloMosaic.ValueIdx Cert.LibFoldedRows

/-- The body's product contracts the left operand's columns against the right operand's rows, with no batch axis. -/
theorem plain : Cert.LibPlainDot.Plain dot_S4096x768_S768x256_S4096x256_1_0_0_1_n_n := ⟨rfl, rfl, rfl, rfl, rfl, rfl⟩

/-- The stored entry at (z, r, u, c), from the four loaded blocks. -/
theorem stored_ix4 (x0 : FVec Ideal S1x32x768 .f32) (x1 : FVec Ideal S1x128x768 .f32) (x2 : FVec Ideal S768x256 .bf16)
    (x3 : FVec Ideal S1x256 .f32) (z : Fin 1) (r : Fin 32) (u : Fin 128) (c : Fin 256) :
    k0_pay1 (F := Ideal) x0 x1 x2 x3 (ix4 z r u c)
      = (∑ k : Fin 768, (x0 (ix3 (0 : Fin 1) r k) + x1 (ix3 (0 : Fin 1) u k)) * x2 (ix2 k c)) + x3 (ix2 (0 : Fin 1) c) := by
  -- the pair (r, u) is row r·128 + u of the folded matrix
  have hlt : r.val * 128 + u.val < 4096 := by have := r.isLt; have := u.isLt; omega
  unfold k0_pay1
  refine (shapeCast_abc_1abc_apply _ _ z r u c).trans ?_
  show (shapeCast S32x128x256 _ _ (ix3 r u c) : EReal) + broadcastTo S32x128x256 _ _ (ix3 r u c) = _
  refine congrArg₂ (· + ·) ?_ ?_
  · -- the product, unfolded from rows to pairs
    refine (shapeCast_mn_abn_apply _ _ r u c ⟨r.val * 128 + u.val, hlt⟩ rfl).trans ?_
    refine (Cert.LibMatmulRows.matmul_zero_ix2 dot_S4096x768_S768x256_S4096x256_1_0_0_1_n_n plain.rank plain.size
      plain.lhs0 plain.lhs1 plain.rhs0 plain.rhs1 none _ _ ⟨r.val * 128 + u.val, hlt⟩ c).trans ?_
    refine Finset.sum_congr rfl fun k _ => ?_
    refine congrArg₂ (· * ·) ?_ ?_
    · -- the left operand's row: the sum enc + dec at the pair
      refine (shapeCast_abn_mn_apply _ _ r u k ⟨r.val * 128 + u.val, hlt⟩ rfl).trans ?_
      show (broadcastTo S32x128x768 _ _ (ix3 r u k) : EReal) + broadcastTo S32x128x768 _ _ (ix3 r u k) = _
      refine congrArg₂ (· + ·) ?_ ?_
      · refine (broadcastTo_a1n_abn_apply _ _ r u k).trans ?_
        refine (shapeCast_an_a1n_apply _ _ r (0 : Fin 1) k).trans ?_
        exact shapeCast_1ab_ab_apply _ _ r k
      · refine (broadcastTo_1bn_abn_apply _ _ r u k).trans ?_
        exact congrFun (shapeCast_shapeCast x1 _ _) _
    · exact congrFun (shapeCast_self x2 _) _
  · -- the bias row, spread over every pair
    refine (broadcastTo_11n_abn_apply _ _ r u c).trans ?_
    refine (shapeCast_n_11n_apply _ _ (0 : Fin 1) (0 : Fin 1) c).trans ?_
    refine (shapeCast_1a_a_apply _ _ c).trans ?_
    exact congrFun (shapeCast_self x3 _) _

/-- The same at any index of the stored block, by its coordinates. -/
theorem stored_apply (x0 : FVec Ideal S1x32x768 .f32) (x1 : FVec Ideal S1x128x768 .f32) (x2 : FVec Ideal S768x256 .bf16)
    (x3 : FVec Ideal S1x256 .f32) (j : S1x32x128x256.Idx) :
    k0_pay1 (F := Ideal) x0 x1 x2 x3 j
      = (∑ k : Fin 768, (x0 (ix3 (0 : Fin 1) (j 1) k) + x1 (ix3 (0 : Fin 1) (j 2) k)) * x2 (ix2 k (j 3)))
        + x3 (ix2 (0 : Fin 1) (j 3)) :=
  (congrArg (k0_pay1 (F := Ideal) x0 x1 x2 x3) (eq_ix4 j)).trans (stored_ix4 x0 x1 x2 x3 (j 0) (j 1) (j 2) (j 3))

end Cert.KernelIdeal.BodyLogits

end
-- ==== Proof.JointLogits.lean ====
/-
  The joint network's logits, as one function of the four argument arrays.

  For a batch entry p, an encoder frame t, a decoder step u and an output class v the result is

      out(p, t, u, v) = Σ_k (enc(p, t, k) + dec(p, u, k)) · W(v, k) + bias(v),

  the sum over the 768 features k, on the extended reals. Both programs form the sum enc + dec first and contract it
  against the weights afterwards, so the two sides agree term by term: no sum is split over a product and no law of the
  extended reals beyond reading the same terms in the same order is needed.

  The kernel is handed the weights transposed, Wt(k, v) = W(v, k), and the bias as a one-row matrix, brow(0, v) =
  bias(v); `logitsOfRows` is the same function written over those two re-laid arrays.
-/
import Idealize.ShloMosaic.PureOps.Ideal.Laws
import Idealize.ShloMosaic.Lib.ValueIdx

noncomputable section

namespace Cert.JointLogits

open Idealize.ShloMosaic Idealize.ShloMosaic.ValueIdx

/-- One logit from its coordinates. -/
def logitAt (enc : (⟨3, ![4, 256, 768]⟩ : Shape).Idx → EReal) (dec : (⟨3, ![4, 128, 768]⟩ : Shape).Idx → EReal)
    (W : (⟨2, ![1024, 768]⟩ : Shape).Idx → EReal) (bias : (⟨1, ![1024]⟩ : Shape).Idx → EReal)
    (p : Fin 4) (t : Fin 256) (u : Fin 128) (v : Fin 1024) : EReal :=
  (∑ k : Fin 768, (enc (ix3 p t k) + dec (ix3 p u k)) * W (ix2 v k)) + bias (ix1 v)

/-- The whole [4, 256, 128, 1024] array of logits. -/
def logits (enc : (⟨3, ![4, 256, 768]⟩ : Shape).Idx → EReal) (dec : (⟨3, ![4, 128, 768]⟩ : Shape).Idx → EReal)
    (W : (⟨2, ![1024, 768]⟩ : Shape).Idx → EReal) (bias : (⟨1, ![1024]⟩ : Shape).Idx → EReal) :
    (⟨4, ![4, 256, 128, 1024]⟩ : Shape).Idx → EReal :=
  fun i => logitAt enc dec W bias (i 0) (i 1) (i 2) (i 3)

/-- One logit from the transposed weights and the bias row. -/
def logitOfRowsAt (enc : (⟨3, ![4, 256, 768]⟩ : Shape).Idx → EReal) (dec : (⟨3, ![4, 128, 768]⟩ : Shape).Idx → EReal)
    (Wt : (⟨2, ![768, 1024]⟩ : Shape).Idx → EReal) (brow : (⟨2, ![1, 1024]⟩ : Shape).Idx → EReal)
    (p : Fin 4) (t : Fin 256) (u : Fin 128) (v : Fin 1024) : EReal :=
  (∑ k : Fin 768, (enc (ix3 p t k) + dec (ix3 p u k)) * Wt (ix2 k v)) + brow (ix2 (0 : Fin 1) v)

/-- The array of logits from the transposed weights and the bias row. -/
def logitsOfRows (enc : (⟨3, ![4, 256, 768]⟩ : Shape).Idx → EReal) (dec : (⟨3, ![4, 128, 768]⟩ : Shape).Idx → EReal)
    (Wt : (⟨2, ![768, 1024]⟩ : Shape).Idx → EReal) (brow : (⟨2, ![1, 1024]⟩ : Shape).Idx → EReal) :
    (⟨4, ![4, 256, 128, 1024]⟩ : Shape).Idx → EReal :=
  fun i => logitOfRowsAt enc dec Wt brow (i 0) (i 1) (i 2) (i 3)

/-- With Wt the transpose of W and brow the bias laid as a row, the two spellings give the same logit. -/
theorem logitOfRowsAt_eq (enc : (⟨3, ![4, 256, 768]⟩ : Shape).Idx → EReal) (dec : (⟨3, ![4, 128, 768]⟩ : Shape).Idx → EReal)
    (W : (⟨2, ![1024, 768]⟩ : Shape).Idx → EReal) (bias : (⟨1, ![1024]⟩ : Shape).Idx → EReal)
    (Wt : (⟨2, ![768, 1024]⟩ : Shape).Idx → EReal) (brow : (⟨2, ![1, 1024]⟩ : Shape).Idx → EReal)
    (hW : ∀ (k : Fin 768) (v : Fin 1024), Wt (ix2 k v) = W (ix2 v k))
    (hb : ∀ v : Fin 1024, brow (ix2 (0 : Fin 1) v) = bias (ix1 v))
    (p : Fin 4) (t : Fin 256) (u : Fin 128) (v : Fin 1024) :
    logitOfRowsAt enc dec Wt brow p t u v = logitAt enc dec W bias p t u v := by
  unfold logitOfRowsAt logitAt
  rw [hb v]
  exact congrArg (· + bias (ix1 v)) (Finset.sum_congr rfl fun k _ => by rw [hW k v])

/-- So the two arrays of logits are one function. -/
theorem logitsOfRows_eq (enc : (⟨3, ![4, 256, 768]⟩ : Shape).Idx → EReal) (dec : (⟨3, ![4, 128, 768]⟩ : Shape).Idx → EReal)
    (W : (⟨2, ![1024, 768]⟩ : Shape).Idx → EReal) (bias : (⟨1, ![1024]⟩ : Shape).Idx → EReal)
    (Wt : (⟨2, ![768, 1024]⟩ : Shape).Idx → EReal) (brow : (⟨2, ![1, 1024]⟩ : Shape).Idx → EReal)
    (hW : ∀ (k : Fin 768) (v : Fin 1024), Wt (ix2 k v) = W (ix2 v k))
    (hb : ∀ v : Fin 1024, brow (ix2 (0 : Fin 1) v) = bias (ix1 v)) :
    logitsOfRows enc dec Wt brow = logits enc dec W bias :=
  funext fun i => logitOfRowsAt_eq enc dec W bias Wt brow hW hb (i 0) (i 1) (i 2) (i 3)

/-- The array of logits read at an index given by its coordinates. -/
theorem logits_ix4 (enc : (⟨3, ![4, 256, 768]⟩ : Shape).Idx → EReal) (dec : (⟨3, ![4, 128, 768]⟩ : Shape).Idx → EReal)
    (W : (⟨2, ![1024, 768]⟩ : Shape).Idx → EReal) (bias : (⟨1, ![1024]⟩ : Shape).Idx → EReal)
    (p : Fin 4) (t : Fin 256) (u : Fin 128) (v : Fin 1024) :
    logits enc dec W bias (ix4 p t u v) = logitAt enc dec W bias p t u v := rfl

end Cert.JointLogits

end
-- ==== Proof.KernelLogits.lean ====
/-
  The kernel's output array is the joint network's logits.

  The grid has 4 · 8 · 4 points (batch entry, tile of 32 encoder frames, tile of 256 output classes). At a point the
  output block is the [1, 32, 128, 256] box at (entry, frame tile, 0, class tile); the enc block is the same entry and
  frame tile, the dec block the same entry, the weight block the same class tile of the transposed weights, the bias
  block the same class tile of the bias row. So the entry the body stores at (z, r, u, c) of the block — read in
  BodyLogits — is the logit at (entry, 32·tile + r, u, 256·tile' + c) of the whole arrays, written over the transposed
  weights and the bias row. The 128 output blocks tile the output array, so after the run the array is that function
  everywhere; and the transposed weights and the bias row are what the host operations before the launch make of W and
  of the bias, which turns the function into `logits` of the four arguments.
-/
import proofs.«115035_j75917841924365_1_alg».proof.Proof.Gen.KernelIdeal.Value
import proofs.«115035_j75917841924365_1_alg».proof.Proof.BodyLogits
import proofs.«115035_j75917841924365_1_alg».proof.Proof.JointLogits
import Idealize.ShloMosaic.Lib.StableHlo.Run
import Idealize.ShloMosaic.Lib.ValueLayout

noncomputable section

namespace Cert.KernelIdeal.KernelLogits

open Cert.KernelIdeal Cert.KernelIdeal.Gen Idealize.ShloMosaic Idealize.ShloMosaic.TcCoe Idealize.SL.Sem
open Idealize.ShloMosaic.StableHlo Idealize.ShloMosaic.ValueIdx Cert.JointLogits
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The arrays the host operations hand to the launch -/

/-- The weights as the launch finds them: W transposed (the change of format is the identity). -/
theorem found_weights (c : Dev nD) :
    (V m c main_v1 : FVec Ideal S768x1024 .bf16)
      = truncf (F := Ideal) .bf16 (transpose S768x1024 [1, 0] (m (c, Proc.tc.devRef main_arg2) : FVec Ideal S1024x768 .f32)
          transposes_S1024x768_S768x1024_1_0) bitsLt_bf16_f32 := by
  dsimp only [Gen.V, Gen.hostOps0]; after_results

/-- The bias as the launch finds it: laid as one row. -/
theorem found_bias (c : Dev nD) :
    (V m c main_v2 : FVec Ideal S1x1024 .f32)
      = shapeCast S1x1024 (m (c, Proc.tc.devRef main_arg3) : FVec Ideal S1024 .f32) shapeCasts_S1024_S1x1024 := by
  dsimp only [Gen.V, Gen.hostOps0]; after_results; rfl

/-- The logits over the arrays as the launch finds them. -/
def found (c : Dev nD) : S4x256x128x1024.Idx → EReal :=
  logitsOfRows (V m c main_arg0) (V m c main_arg1) (V m c main_v1) (V m c main_v2)

/-- They are the logits of the four arguments. -/
theorem found_eq (c : Dev nD) :
    found m c = logits (m ((c : Thread nD τ).loc main_arg0)) (m ((c : Thread nD τ).loc main_arg1))
      (m ((c : Thread nD τ).loc main_arg2)) (m ((c : Thread nD τ).loc main_arg3)) := by
  unfold found
  rw [V_main_arg0 m c, V_main_arg1 m c]
  refine logitsOfRows_eq _ _ _ _ _ _ (fun k v => ?_) (fun v => ?_)
  · rw [found_weights m c]
    exact transpose_ix2_apply _ _ k v
  · rw [found_bias m c]
    exact shapeCast_a_1a_apply _ _ (0 : Fin 1) v

/-! ## One grid point -/

/-- Where each window's block sits at a grid point, relative to the output block (decided over the 128 points). -/
theorem index_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = win0_4.index t (3 : Fin 4)
    ∧ win0_3.index t (0 : Fin 2) = 0 ∧ win0_3.index t (1 : Fin 2) = win0_4.index t (3 : Fin 4)
    ∧ win0_4.index t (2 : Fin 4) = 0 :=
  (by decide +kernel : ∀ t : Fin grid0.N, _)

/-- What a grid point writes back is its block of `found`. -/
theorem flushed_eq (c : Dev nD) (t : Fin cfg0.N) :
    (dats m 0 c).flushed 4 t = ((cfg0.win 4).blk t).view.read (Elt Ideal) (found m c) := by
  rw [Value.flushed4]
  unfold out0_4
  rw [View.canon_unit_zero zeros4]
  simp only [View.ld_unit_zero (S := S1x32x768) zeros3, View.ld_unit_zero (S := S1x128x768) zeros3,
    View.ld_unit_zero (S := S768x256) zeros2, View.ld_unit_zero (S := S1x256) zeros2]
  obtain ⟨a00, a01, a02, a10, a11, a12, a20, a21, a30, a31, a42⟩ := index_facts t
  funext j
  show k0_pay1 (F := Ideal) (iblk m c 0 t) (iblk m c 1 t) (iblk m c 2 t) (iblk m c 3 t) j
    = logitOfRowsAt (V m c main_arg0) (V m c main_arg1) (V m c main_v1) (V m c main_v2)
        (((cfg0.win 4).blk t).view.emb j 0) (((cfg0.win 4).blk t).view.emb j 1)
        (((cfg0.win 4).blk t).view.emb j 2) (((cfg0.win 4).blk t).view.emb j 3)
  refine (BodyLogits.stored_apply (iblk m c 0 t) (iblk m c 1 t) (iblk m c 2 t) (iblk m c 3 t) j).trans ?_
  unfold logitOfRowsAt
  have hj0 : (j 0).val < 1 := (j 0).isLt
  refine congrArg₂ (· + ·) (Finset.sum_congr rfl fun k _ => congrArg₂ (· * ·) (congrArg₂ (· + ·) ?_ ?_) ?_) ?_
  · -- the enc block: same entry, same tile of frames
    show V m c main_arg0 (((cfg0.win 0).blk t).view.emb (ix3 (0 : Fin 1) (j 1) k))
      = V m c main_arg0 (ix3 (((cfg0.win 4).blk t).view.emb j 0) (((cfg0.win 4).blk t).view.emb j 1) k)
    refine congrArg (V m c main_arg0) (funext fun a => Fin.ext ?_)
    match a with
    | ⟨0, _⟩ =>
      show win0_0.index t (0 : Fin 3) * 1 + 1 * 0 = win0_4.index t (0 : Fin 4) * 1 + 1 * (j 0).val
      omega
    | ⟨1, _⟩ =>
      show win0_0.index t (1 : Fin 3) * 32 + 1 * (j 1).val = win0_4.index t (1 : Fin 4) * 32 + 1 * (j 1).val
      omega
    | ⟨2, _⟩ =>
      show win0_0.index t (2 : Fin 3) * 768 + 1 * k.val = k.val
      omega
  · -- the dec block: same entry, every decoder step
    show V m c main_arg1 (((cfg0.win 1).blk t).view.emb (ix3 (0 : Fin 1) (j 2) k))
      = V m c main_arg1 (ix3 (((cfg0.win 4).blk t).view.emb j 0) (((cfg0.win 4).blk t).view.emb j 2) k)
    refine congrArg (V m c main_arg1) (funext fun a => Fin.ext ?_)
    match a with
    | ⟨0, _⟩ =>
      show win0_1.index t (0 : Fin 3) * 1 + 1 * 0 = win0_4.index t (0 : Fin 4) * 1 + 1 * (j 0).val
      omega
    | ⟨1, _⟩ =>
      show win0_1.index t (1 : Fin 3) * 128 + 1 * (j 2).val = win0_4.index t (2 : Fin 4) * 128 + 1 * (j 2).val
      omega
    | ⟨2, _⟩ =>
      show win0_1.index t (2 : Fin 3) * 768 + 1 * k.val = k.val
      omega
  · -- the weight block: every feature, same tile of classes
    show V m c main_v1 (((cfg0.win 2).blk t).view.emb (ix2 k (j 3)))
      = V m c main_v1 (ix2 k (((cfg0.win 4).blk t).view.emb j 3))
    refine congrArg (V m c main_v1) (funext fun a => Fin.ext ?_)
    match a with
    | ⟨0, _⟩ =>
      show win0_2.index t (0 : Fin 2) * 768 + 1 * k.val = k.val
      omega
    | ⟨1, _⟩ =>
      show win0_2.index t (1 : Fin 2) * 256 + 1 * (j 3).val = win0_4.index t (3 : Fin 4) * 256 + 1 * (j 3).val
      omega
  · -- the bias block: same tile of classes
    show V m c main_v2 (((cfg0.win 3).blk t).view.emb (ix2 (0 : Fin 1) (j 3)))
      = V m c main_v2 (ix2 (0 : Fin 1) (((cfg0.win 4).blk t).view.emb j 3))
    refine congrArg (V m c main_v2) (funext fun a => Fin.ext ?_)
    match a with
    | ⟨0, _⟩ =>
      show win0_3.index t (0 : Fin 2) * 1 + 1 * 0 = 0
      omega
    | ⟨1, _⟩ =>
      show win0_3.index t (1 : Fin 2) * 256 + 1 * (j 3).val = win0_4.index t (3 : Fin 4) * 256 + 1 * (j 3).val
      omega

/-! ## The blocks tile the output array -/

/-- An index of the output array is in a point's block iff each coordinate is in the block's range on its axis. -/
theorem mem_block (t : Fin cfg0.N) (i : S4x256x128x1024.Idx) :
    i ∈ ((cfg0.win 4).blk t).view.set ↔ ∀ a : Fin 4, win0_4.index t a * S1x32x128x256.size a ≤ (i a).val
      ∧ (i a).val < win0_4.index t a * S1x32x128x256.size a + S1x32x128x256.size a := by
  show i ∈ ((View.whole main_v3).slice (win0_4.rect t)).set ↔ _
  rw [View.set_slice_whole, Rect.mem_set_unit]
  exact Iff.rfl

/-- Every (entry, frame tile, class tile) is some grid point's output block. -/
theorem index_onto : ∀ (q0 : Fin 4) (q1 : Fin 8) (q3 : Fin 4), ∃ t : Fin cfg0.N, win0_4.index t = ![q0.val, q1.val, 0, q3.val] :=
  (by decide +kernel : ∀ (q0 : Fin 4) (q1 : Fin 8) (q3 : Fin 4), ∃ t : Fin grid0.N, win0_4.index t = ![q0.val, q1.val, 0, q3.val])

/-- Every index of the output array is in the block of the point at (its entry, its frame / 32, its class / 256). -/
theorem covered (i : S4x256x128x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := index_onto ⟨(i 0).val, hi0⟩ ⟨(i 1).val / 32, by omega⟩ ⟨(i 3).val / 256, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = (i 3).val / 256 := congrFun ht 3
  refine ⟨t, flush0_4 t, ?_⟩
  rw [mem_block]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 32 ≤ (i 1).val ∧ (i 1).val < win0_4.index t (1 : Fin 4) * 32 + 32
    omega
  | ⟨2, _⟩ =>
    show win0_4.index t (2 : Fin 4) * 128 ≤ (i 2).val ∧ (i 2).val < win0_4.index t (2 : Fin 4) * 128 + 128
    omega
  | ⟨3, _⟩ =>
    show win0_4.index t (3 : Fin 4) * 256 ≤ (i 3).val ∧ (i 3).val < win0_4.index t (3 : Fin 4) * 256 + 256
    omega

/-! ## The array after the run, and the run -/

/-- After the run the output array is the logits of the four arguments. -/
theorem final (c : Dev nD) :
    (dats m 0 c).arrAt 4 cfg0.N = logits (m ((c : Thread nD τ).loc main_arg0)) (m ((c : Thread nD τ).loc main_arg1))
      (m ((c : Thread nD τ).loc main_arg2)) (m ((c : Thread nD τ).loc main_arg3)) :=
  ((dats m 0 c).arrAt_eq_of_cover 4 (found m c) (fun t _ => flushed_eq m c t) covered).trans (found_eq m c)

/-- Every weakly fair execution of the idealized kernel ends with the result at the logits of its arguments and the
    arguments unchanged. -/
theorem run : θ_run defs (onTc (τ := τ) (main (F := Ideal))) ⟨m, fun _ => 0, ρ⟩ fun r => ∀ c : Dev nD,
      r.2.mem ((c : Thread nD τ).loc main_v3) = logits (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelLogits

end
-- ==== Proof.RefLogits.lean ====
/-
  The reference computes the joint network's logits.

  The reference spreads enc over the decoder steps and dec over the encoder frames, adds, contracts the feature axis of
  the sum against the feature axis of W, and adds the bias spread over every (p, t, u). Read at an index (p, t, u, v)
  that is Σ_k (enc(p, t, k) + dec(p, u, k)) · W(v, k) + bias(v): each spreading reads its operand at the coordinates it
  keeps, and the contraction is the plain sum over the 768 features.
-/
import proofs.«115035_j75917841924365_1_alg».proof.Proof.Gen.ReferenceIdeal.Read
import proofs.«115035_j75917841924365_1_alg».proof.Proof.JointLogits

noncomputable section

namespace Cert.ReferenceIdeal.RefLogits

open Cert.ReferenceIdeal Cert.ReferenceIdeal.Gen Cert.ReferenceIdeal.Read
open Idealize.ShloMosaic Idealize.ShloMosaic.ValueIdx

/-- The reference's result, as a function of its four arguments, is `logits`. -/
theorem ref_eq (x0 : (⟨S4x256x768, .f32⟩ : BufTy).Contents (Elt Ideal)) (x1 : (⟨S4x128x768, .f32⟩ : BufTy).Contents (Elt Ideal))
    (x2 : (⟨S1024x768, .f32⟩ : BufTy).Contents (Elt Ideal)) (x3 : (⟨S1024, .f32⟩ : BufTy).Contents (Elt Ideal)) :
    val_main_v8 (F := Ideal) x0 x1 x2 x3 = Cert.JointLogits.logits x0 x1 x2 x3 := by
  funext i
  obtain ⟨p, t, u, v, rfl⟩ : ∃ (p : Fin 4) (t : Fin 256) (u : Fin 128) (v : Fin 1024), i = ix4 p t u v :=
    ⟨i 0, i 1, i 2, i 3, eq_ix4 i⟩
  -- the coordinates each spreading keeps, composed
  have e0 : ∀ k : Fin 768, idx_main_v0 (idx_main_v2 (lidx_main_v5 (ix4 p t u v) k)) = ix3 p t k := fun k =>
    funext fun a => Fin.ext (by match a with | ⟨0, _⟩ => rfl | ⟨1, _⟩ => rfl | ⟨2, _⟩ => rfl)
  have e1 : ∀ k : Fin 768, idx_main_v1 (idx_main_v3 (lidx_main_v5 (ix4 p t u v) k)) = ix3 p u k := fun k =>
    funext fun a => Fin.ext (by match a with | ⟨0, _⟩ => rfl | ⟨1, _⟩ => rfl | ⟨2, _⟩ => rfl)
  have e2 : ∀ k : Fin 768, ridx_main_v5 (ix4 p t u v) k = ix2 v k := fun k =>
    funext fun a => Fin.ext (by match a with | ⟨0, _⟩ => rfl | ⟨1, _⟩ => rfl)
  have e3 : idx_main_v6 (idx_main_v7 (ix4 p t u v)) = ix1 v :=
    funext fun a => Fin.ext (by match a with | ⟨0, _⟩ => rfl)
  rw [val_main_v8_apply, val_main_v5_apply, val_main_v7_apply, val_main_v6_apply, e3, Cert.JointLogits.logits_ix4]
  unfold Cert.JointLogits.logitAt
  refine congrArg (· + x3 (ix1 v)) (Finset.sum_congr rfl fun k _ => ?_)
  rw [val_main_v4_apply, val_main_v2_apply, val_main_v3_apply, val_main_v0_apply, val_main_v1_apply, e0, e1, e2]
  rfl

end Cert.ReferenceIdeal.RefLogits

end
-- ==== Proof.lean ====
/-
  The joint network's logits: out(p, t, u, v) = Σ_k (enc(p, t, k) + dec(p, u, k)) · W(v, k) + bias(v).

  The kernel never forms the [4, 256, 128, 768] array enc + dec: at each of its 4 · 8 · 4 grid points it adds a tile of
  32 encoder frames to all 128 decoder steps of one batch entry, lays the 4096 pairs out as the rows of one matrix,
  multiplies by a [768, 256] tile of the transposed weights and adds a tile of the bias row. The reference spreads both
  arrays to [4, 256, 128, 768], adds, contracts the feature axis against W and adds the bias. On the extended reals
  both read, at every index, the same 768 products in the same order plus the same bias entry: the kernel's rounding
  of the sum and of the weights to a narrower format is the identity there, its product into a zero accumulator and
  the reference's contraction are the same plain sum, and no sum is ever split over a product, so the equality needs
  nothing of the inputs and the precondition is never opened.

  The pieces: JointLogits states the function; RefLogits reads the reference's operations at an index; BodyLogits
  reads what the kernel body stores at an index of its block; KernelLogits places each block in the whole arrays,
  shows the output blocks tile the result, and reads the transposed weights and the bias row off the host operations
  before the launch. The three frames are the two generated frame runs and the reference's generated run with its
  result dropped; the ideal pass rewrote nothing, so there is nothing to preserve.
-/
import proofs.«115035_j75917841924365_1_alg».proof.Defs
import proofs.«115035_j75917841924365_1_alg».proof.Proof.Gen.Kernel
import proofs.«115035_j75917841924365_1_alg».proof.Proof.Gen.Kernel.Skeleton
import proofs.«115035_j75917841924365_1_alg».proof.Proof.Gen.Kernel.Launch
import proofs.«115035_j75917841924365_1_alg».proof.Proof.Gen.Kernel.Points
import proofs.«115035_j75917841924365_1_alg».proof.Proof.Gen.Kernel.Frame
import proofs.«115035_j75917841924365_1_alg».proof.Proof.Gen.KernelIdeal
import proofs.«115035_j75917841924365_1_alg».proof.Proof.Gen.KernelIdeal.Skeleton
import proofs.«115035_j75917841924365_1_alg».proof.Proof.Gen.KernelIdeal.Launch
import proofs.«115035_j75917841924365_1_alg».proof.Proof.Gen.KernelIdeal.Points
import proofs.«115035_j75917841924365_1_alg».proof.Proof.Gen.KernelIdeal.Frame
import proofs.«115035_j75917841924365_1_alg».proof.Proof.Gen.ReferenceIdeal
import proofs.«115035_j75917841924365_1_alg».proof.Proof.Gen.Pre_finite_inputs
import proofs.«115035_j75917841924365_1_alg».proof.Proof.Gen.KernelIdeal.Value
import proofs.«115035_j75917841924365_1_alg».proof.Proof.Gen.ReferenceIdeal.Run
import proofs.«115035_j75917841924365_1_alg».proof.Proof.Gen.ReferenceIdeal.Read
import proofs.«115035_j75917841924365_1_alg».proof.Proof.KernelLogits
import proofs.«115035_j75917841924365_1_alg».proof.Proof.RefLogits
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the four arguments both programs end with the result at the logits of the arguments:
    the kernel by its run read block by block, the reference by its operations read at an index. -/
theorem algebraic : Cert.algebraic_KernelIdeal_ReferenceIdeal := by
  intro m ρ m' ρ' _ hagree
  refine ⟨_, Cert.KernelIdeal.KernelLogits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefLogits.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
